-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) (main_arg1 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S4096x16384 : Shape := ⟨2, ![4096, 16384]⟩
abbrev S16384 : Shape := ⟨1, ![16384]⟩
abbrev S16384x1 : Shape := ⟨2, ![16384, 1]⟩
abbrev S14 : Shape := ⟨1, ![14]⟩
abbrev S_ : Shape := ⟨0, ![]⟩
abbrev S1x14 : Shape := ⟨2, ![1, 14]⟩
abbrev S16384x14 : Shape := ⟨2, ![16384, 14]⟩
abbrev S4096x14 : Shape := ⟨2, ![4096, 14]⟩
abbrev S512x2048 : Shape := ⟨2, ![512, 2048]⟩
abbrev S2048x14 : Shape := ⟨2, ![2048, 14]⟩
abbrev S512x14 : Shape := ⟨2, ![512, 14]⟩

abbrev nBuf : Space → Nat
  | .hbm => 23
  | .vmem => 8
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384, .i32⟩
  | .hbm, ⟨3, _⟩ => ⟨S16384x1, .i32⟩
  | .hbm, ⟨4, _⟩ => ⟨S14, .i32⟩
  | .hbm, ⟨5, _⟩ => ⟨S_, .i32⟩
  | .hbm, ⟨6, _⟩ => ⟨S14, .i32⟩
  | .hbm, ⟨7, _⟩ => ⟨S14, .i32⟩
  | .hbm, ⟨8, _⟩ => ⟨S1x14, .i32⟩
  | .hbm, ⟨9, _⟩ => ⟨S16384x14, .i32⟩
  | .hbm, ⟨10, _⟩ => ⟨S16384x14, .i32⟩
  | .hbm, ⟨11, _⟩ => ⟨S16384x14, .i32⟩
  | .hbm, ⟨12, _⟩ => ⟨S_, .i32⟩
  | .hbm, ⟨13, _⟩ => ⟨S16384x14, .i32⟩
  | .hbm, ⟨14, _⟩ => ⟨S16384x14, .i32⟩
  | .hbm, ⟨15, _⟩ => ⟨S16384x14, .f32⟩
  | .hbm, ⟨16, _⟩ => ⟨S_, .f32⟩
  | .hbm, ⟨17, _⟩ => ⟨S16384x14, .f32⟩
  | .hbm, ⟨18, _⟩ => ⟨S16384x14, .f32⟩
  | .hbm, ⟨19, _⟩ => ⟨S_, .f32⟩
  | .hbm, ⟨20, _⟩ => ⟨S16384x14, .f32⟩
  | .hbm, ⟨21, _⟩ => ⟨S16384x14, .f32⟩
  | .hbm, ⟨22, _⟩ => ⟨S4096x14, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x14, .f32⟩
  | .local _ .vmem, ⟨5, _⟩ => ⟨S2048x14, .f32⟩
  | .local _ .vmem, ⟨6, _⟩ => ⟨S512x14, .f32⟩
  | .local _ .vmem, ⟨7, _⟩ => ⟨S512x14, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16384_S16384x1_0 : S16384.BroadcastsInDim S16384x1 (![0] : Fin 1 → Fin S16384x1.rank)
  bcast_S_S14 : S_.BroadcastsInDim S14 (![] : Fin 0 → Fin S14.rank)
  bcast_S14_S1x14_1 : S14.BroadcastsInDim S1x14 (![1] : Fin 1 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S_S16384x14 : S_.BroadcastsInDim S16384x14 (![] : Fin 0 → Fin S16384x14.rank)
  inb_S512x14_S512x14_0_0 : ∀ a, (![0, 0] : Fin 2 → Nat) a + S512x14.size a ≤ S512x14.size a
  h_S512x14 : 0 < S512x14.numel
  inb_S512x2048_S512x2048_0_0 : ∀ a, (![0, 0] : Fin 2 → Nat) a + S512x2048.size a ≤ S512x2048.size a
  h_S512x2048 : 0 < S512x2048.numel
  inb_S2048x14_S2048x14_0_0 : ∀ a, (![0, 0] : Fin 2 → Nat) a + S2048x14.size a ≤ S2048x14.size a
  h_S2048x14 : 0 < S2048x14.numel
  shapeCasts_S2048x14_S2048x14 : S2048x14.ShapeCasts S2048x14
  shapeCasts_S512x14_S512x14 : S512x14.ShapeCasts S512x14
  dot_S512x2048_S2048x14_S512x14_1_0_0_1_n_n_wf : DotDims.WF S512x2048 S2048x14 S512x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x16384.size a
  hwx0_1 : ∀ i : grid0.Coords, EltTy.bits .f32 = 32 ∨ (Rect.block (s := S4096x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x14.size a ≤ S16384x14.size a
  hwx0_2 : ∀ i : grid0.Coords, EltTy.bits .f32 = 32 ∨ (Rect.block (s := S16384x14) S2048x14.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x14.size a ≤ S4096x14.size a
  hwx0_3 : ∀ i : grid0.Coords, EltTy.bits .f32 = 32 ∨ (Rect.block (s := S4096x14) S512x14.size (cc0_transform_3 i) (hinb0_3 i)).WholeWords (EltTy.packing .f32)

variable [Facts₀]

def dot_S512x2048_S2048x14_S512x14_1_0_0_1_n_n : DotDims S512x2048 S2048x14 S512x14 where
  lhsContracting := [1]
  rhsContracting := [0]
  lhsNonContracting := [0]
  rhsNonContracting := [1]
  lhsBatch := []
  rhsBatch := []
  wf := dot_S512x2048_S2048x14_S512x14_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x14.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x14.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384 : Shape := ⟨1, ![16384]⟩
abbrev S14 : Shape := ⟨1, ![14]⟩
abbrev S_ : Shape := ⟨0, ![]⟩
abbrev S14x1 : Shape := ⟨2, ![14, 1]⟩
abbrev S1x16384 : Shape := ⟨2, ![1, 16384]⟩
abbrev S14x16384 : Shape := ⟨2, ![14, 16384]⟩
abbrev S4096x14 : Shape := ⟨2, ![4096, 14]⟩

abbrev nBuf : Space → Nat
  | .hbm => 27
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384, .i32⟩
  | .hbm, ⟨3, _⟩ => ⟨S14, .i32⟩
  | .hbm, ⟨4, _⟩ => ⟨S_, .i32⟩
  | .hbm, ⟨5, _⟩ => ⟨S14, .i32⟩
  | .hbm, ⟨6, _⟩ => ⟨S14, .i32⟩
  | .hbm, ⟨7, _⟩ => ⟨S14x1, .i32⟩
  | .hbm, ⟨8, _⟩ => ⟨S1x16384, .i32⟩
  | .hbm, ⟨9, _⟩ => ⟨S14x16384, .i32⟩
  | .hbm, ⟨10, _⟩ => ⟨S14x16384, .i32⟩
  | .hbm, ⟨11, _⟩ => ⟨S14x16384, .i32⟩
  | .hbm, ⟨12, _⟩ => ⟨S_, .i32⟩
  | .hbm, ⟨13, _⟩ => ⟨S14x16384, .i32⟩
  | .hbm, ⟨14, _⟩ => ⟨S14x16384, .i32⟩
  | .hbm, ⟨15, _⟩ => ⟨S14x16384, .f32⟩
  | .hbm, ⟨16, _⟩ => ⟨S_, .f32⟩
  | .hbm, ⟨17, _⟩ => ⟨S14x16384, .f32⟩
  | .hbm, ⟨18, _⟩ => ⟨S14x16384, .f32⟩
  | .hbm, ⟨19, _⟩ => ⟨S_, .f32⟩
  | .hbm, ⟨20, _⟩ => ⟨S14x16384, .f32⟩
  | .hbm, ⟨21, _⟩ => ⟨S14x16384, .f32⟩
  | .hbm, ⟨22, _⟩ => ⟨S14x16384, .f32⟩
  | .hbm, ⟨23, _⟩ => ⟨S4096x16384, .f32⟩
  | .hbm, ⟨24, _⟩ => ⟨S4096x16384, .f32⟩
  | .hbm, ⟨25, _⟩ => ⟨S4096x16384, .f32⟩
  | .hbm, ⟨26, _⟩ => ⟨S4096x14, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S14_S14x1_0 : S14.BroadcastsInDim S14x1 (![0] : Fin 1 → Fin S14x1.rank)
  bcast_S16384_S1x16384_1 : S16384.BroadcastsInDim S1x16384 (![1] : Fin 1 → Fin S1x16384.rank)
  bcast_S1x16384_S14x16384_0_1 : S1x16384.BroadcastsInDim S14x16384 (![0, 1] : Fin 2 → Fin S14x16384.rank)
  bcast_S14x1_S14x16384_0_1 : S14x1.BroadcastsInDim S14x16384 (![0, 1] : Fin 2 → Fin S14x16384.rank)
  bcast_S_S14x16384 : S_.BroadcastsInDim S14x16384 (![] : Fin 0 → Fin S14x16384.rank)
  dot_S4096x16384_S14x16384_S4096x14_1_1_0_0_n_n_wf : DotDims.WF S4096x16384 S14x16384 S4096x14 [1] [1] [0] [0] [] []

variable [Facts₀]

def dot_S4096x16384_S14x16384_S4096x14_1_1_0_0_n_n : DotDims S4096x16384 S14x16384 S4096x14 where
  lhsContracting := [1]
  rhsContracting := [1]
  lhsNonContracting := [0]
  rhsNonContracting := [0]
  lhsBatch := []
  rhsBatch := []
  wf := dot_S4096x16384_S14x16384_S4096x14_1_1_0_0_n_n_wf

class Facts : Prop extends Facts₀ where

variable [Facts]
-- ==== Proof.Expectation.lean ====
/-
  The function both programs compute.

  A batch of 4096 state vectors over 14 qubits is given by the real and imaginary parts of its amplitudes over the
  2¹⁴ = 16384 basis states. The expectation of Pauli-Z on qubit `q` in state `b` is

      E(b, q) = Σ_n (re(b,n)² + im(b,n)²) · σ(n, q),      σ(n, q) = 1 − 2 · bit_{13 − q}(n),

  a sum of 16384 products on the extended reals. `sgn` is σ, written with the very operations both programs apply
  (an arithmetic shift of the basis index by 13 − q, the low bit, its conversion to a float, 1 − 2·bit), so that it is
  never evaluated: each program's sign table is this term by unfolding. `expect` is E.

  One program forms the sum at once, the other as eight partial sums over consecutive stretches of 2048 basis
  states added one after the other: `sum_blocks` is the regrouping, which needs only that addition on the extended
  reals is commutative and associative (no cancellation, hence no finiteness of the amplitudes).
-/
import Idealize.ShloMosaic.PureOps.Ideal
import Idealize.ShloMosaic.Lib.ValueIdx

noncomputable section

namespace Cert.PauliZ

open Idealize.ShloMosaic Idealize.ShloMosaic.ValueIdx

/-- σ(n, q) = 1 − 2 · bit_{13 − q}(n): the eigenvalue of Pauli-Z on qubit `q` (qubit 0 the most significant bit) at
    basis state `n`. -/
def sgn (n : Fin 16384) (q : Fin 14) : EReal :=
  FloatOps.subf (F := Ideal) (φ := .f32) (FloatOps.ofBits .f32 0x3F800000#32)
    (FloatOps.mulf (FloatOps.ofBits .f32 0x40000000#32)
      (FloatOps.sitofp .f32
        (IntOp.andi (IntOp.shrsi .host (BitVec.ofNat 32 n.val) (IntOp.subi 13#32 (BitVec.ofNat 32 q.val))) 1#32)))

/-- E(b, q) = Σ_n (re(b,n)² + im(b,n)²) · σ(n, q). -/
def expect (re im : FVec Ideal ⟨2, ![4096, 16384]⟩ .f32) : FVec Ideal ⟨2, ![4096, 14]⟩ .f32 := fun i =>
  ∑ n : Fin 16384, (re (ix2 (i 0) n) * re (ix2 (i 0) n) + im (ix2 (i 0) n) * im (ix2 (i 0) n)) * sgn n (i 1)

/-- A sum over the 16384 basis states is the sum, over the eight stretches `s`, of the sums over the 2048 states
    `2048·s + k` of the stretch. -/
theorem sum_blocks {M : Type*} [AddCommMonoid M] (f : ℕ → M) :
    ∑ s ∈ Finset.range 8, ∑ k : Fin 2048, f (2048 * s + k.val) = ∑ n : Fin 16384, f n.val := by
  have e : ∑ n : Fin 16384, f n.val = ∑ p : Fin 8 × Fin 2048, f (finProdFinEquiv p).val :=
    (Equiv.sum_comp (finProdFinEquiv (m := 8) (n := 2048)) (fun n : Fin (8 * 2048) => f n.val)).symm
  rw [e, Fintype.sum_prod_type, Finset.sum_range]
  refine Finset.sum_congr rfl fun s _ => Finset.sum_congr rfl fun k _ => ?_
  refine congrArg f ?_
  show 2048 * s.val + k.val = k.val + 2048 * s.val
  omega

end Cert.PauliZ

end
-- ==== Proof.RefExpectation.lean ====
/-
  The reference is the expectation `expect`.

  Its sign table, a [14, 16384] array, holds σ(n, q) at (q, n): the shift, the mask, the conversion and 1 − 2·bit are
  applied entry by entry to the basis index `n` (an iota along the second axis) and to 13 − q (an iota along the first,
  subtracted from 13), so reading the composed stages at (q, n) gives the term `sgn n q`. Its result at (b, q) is the
  contraction over `n` of re(b,n)² + im(b,n)² with that table's row `q`: the defining sum of `expect`.
-/
import proofs.«102117_j35150012350919_2_alg».proof.Proof.Gen.ReferenceIdeal.Read
import proofs.«102117_j35150012350919_2_alg».proof.Proof.Expectation

noncomputable section

namespace Cert.PauliZ.Reference

open Cert.ReferenceIdeal Cert.ReferenceIdeal.Gen Cert.ReferenceIdeal.Read
open Idealize.ShloMosaic Idealize.ShloMosaic.ValueIdx

/-- The reference's sign table at (q, n) is σ(n, q). -/
theorem table_apply (q : Fin 14) (n : Fin 16384) : val_main_v16 (F := Ideal) (ix2 q n) = sgn n q := by
  rw [val_main_v16_apply, val_main_v15_apply, val_main_v14_apply, val_main_cst_1_apply, val_main_v13_apply,
    val_main_v12_apply, val_main_cst_apply, val_main_v11_apply, val_main_v10_apply, val_main_v8_apply,
    val_main_v9_apply, val_main_c_0_apply, val_main_v6_apply, val_main_v5_apply, val_main_v0_apply,
    val_main_v7_apply, val_main_v4_apply, val_main_v3_apply, val_main_v2_apply, val_main_c_apply, val_main_v1_apply]
  rfl

/-- The reference's result is E of its two arguments. -/
theorem result_eq (re im : FVec Ideal S4096x16384 .f32) : val_main_v20 (F := Ideal) re im = expect re im := by
  funext i
  obtain ⟨b, q, rfl⟩ : ∃ (b : Fin 4096) (q : Fin 14), i = ix2 b q := ⟨i 0, i 1, eq_ix2 i⟩
  rw [val_main_v20_apply]
  show _ = ∑ n : Fin 16384, (re (ix2 b n) * re (ix2 b n) + im (ix2 b n) * im (ix2 b n)) * sgn n q
  refine Finset.sum_congr rfl fun n _ => ?_
  have hl : lidx_main_v20 (ix2 b q) n = ix2 b n :=
    funext fun a => Fin.ext (by match a with | ⟨0, _⟩ => rfl | ⟨1, _⟩ => rfl)
  have hr : ridx_main_v20 (ix2 b q) n = ix2 q n :=
    funext fun a => Fin.ext (by match a with | ⟨0, _⟩ => rfl | ⟨1, _⟩ => rfl)
  rw [hl, hr, table_apply, val_main_v19_apply, val_main_v17_apply, val_main_v18_apply]
  rfl

end Cert.PauliZ.Reference

end
-- ==== Proof.SignTable.lean ====
/-
  The kernel's sign table is σ.

  Before the launch the host composes a [16384, 14] array: the basis index `n` (an iota down the rows) shifted right
  by 13 − q (an iota along the columns, subtracted from 13), masked to its low bit, converted, and 1 − 2·bit taken —
  the reference's table transposed. Read at (n, q), every broadcast passes the index on to its operand's one
  coordinate, and what is left is the term `sgn n q`.
-/
import proofs.«102117_j35150012350919_2_alg».proof.Proof.Gen.KernelIdeal.Frame.Runs
import proofs.«102117_j35150012350919_2_alg».proof.Proof.Expectation
import Idealize.ShloMosaic.Lib.StableHlo.Run
import Idealize.ShloMosaic.Lib.Pipeline.Value

noncomputable section

namespace Cert.PauliZ.Kernel

open Cert.KernelIdeal Cert.KernelIdeal.Gen
open Idealize.ShloMosaic Idealize.ShloMosaic.TcCoe Idealize.SL.Sem Idealize.ShloMosaic.ValueIdx

/-! ## Each broadcast read at an index -/

/-- A scalar spread over the whole table is that scalar. -/
theorem bc_scalar {α : Type} (x : S_.Idx → α) (j : S16384x14.Idx) :
    broadcastInDim S16384x14 ![] bcast_S_S16384x14 x j = x ix0 :=
  broadcastInDim_apply _ bcast_S_S16384x14 x j ix0 (fun a => a.elim0)

/-- A scalar spread over the 14 qubits is that scalar. -/
theorem bc_scalar14 {α : Type} (x : S_.Idx → α) (j : S14.Idx) :
    broadcastInDim S14 ![] bcast_S_S14 x j = x ix0 :=
  broadcastInDim_apply _ bcast_S_S14 x j ix0 (fun a => a.elim0)

/-- The basis indices stood up as a column: entry (n, 0) is entry n. -/
theorem bc_col {α : Type} (x : S16384.Idx → α) (j : S16384x1.Idx) :
    broadcastInDim S16384x1 ![0] bcast_S16384_S16384x1_0 x j = x (ix1 (j 0)) :=
  broadcastInDim_apply _ bcast_S16384_S16384x1_0 x j (ix1 (j 0)) (fun a => match a with
    | ⟨0, _⟩ => by show (j 0).val = if (16384 : Nat) = 1 then 0 else (j 0).val; rw [if_neg (by decide)])

/-- That column repeated across the 14 columns: entry (n, q) is entry (n, 0). -/
theorem bc_cols {α : Type} (x : S16384x1.Idx → α) (j : S16384x14.Idx) :
    broadcastInDim S16384x14 ![0, 1] bcast_S16384x1_S16384x14_0_1 x j = x (ix2 (j 0) 0) :=
  broadcastInDim_apply _ bcast_S16384x1_S16384x14_0_1 x j (ix2 (j 0) 0) (fun a => match a with
    | ⟨0, _⟩ => by show (j 0).val = if (16384 : Nat) = 1 then 0 else (j 0).val; rw [if_neg (by decide)]
    | ⟨1, _⟩ => by show 0 = if (1 : Nat) = 1 then 0 else (j 1).val; rw [if_pos rfl])

/-- The shift amounts laid down as a row: entry (0, q) is entry q. -/
theorem bc_row {α : Type} (x : S14.Idx → α) (j : S1x14.Idx) :
    broadcastInDim S1x14 ![1] bcast_S14_S1x14_1 x j = x (ix1 (j 1)) :=
  broadcastInDim_apply _ bcast_S14_S1x14_1 x j (ix1 (j 1)) (fun a => match a with
    | ⟨0, _⟩ => by show (j 1).val = if (14 : Nat) = 1 then 0 else (j 1).val; rw [if_neg (by decide)])

/-- That row repeated down the 16384 rows: entry (n, q) is entry (0, q). -/
theorem bc_rows {α : Type} (x : S1x14.Idx → α) (j : S16384x14.Idx) :
    broadcastInDim S16384x14 ![0, 1] bcast_S1x14_S16384x14_0_1 x j = x (ix2 0 (j 1)) :=
  broadcastInDim_apply _ bcast_S1x14_S16384x14_0_1 x j (ix2 0 (j 1)) (fun a => match a with
    | ⟨0, _⟩ => by show 0 = if (1 : Nat) = 1 then 0 else (j 0).val; rw [if_pos rfl]
    | ⟨1, _⟩ => by show (j 1).val = if (14 : Nat) = 1 then 0 else (j 1).val; rw [if_neg (by decide)])

/-! ## The table -/

/-- The [16384, 14] sign table as the host operations before the launch compose it. -/
def table : FVec Ideal S16384x14 .f32 :=
  subf (broadcastInDim S16384x14 ![] bcast_S_S16384x14 (constant (F := Ideal) S_ .f32 0x3F800000#32))
    (mulf (broadcastInDim S16384x14 ![] bcast_S_S16384x14 (constant (F := Ideal) S_ .f32 0x40000000#32))
      (sitofp .f32 (andi
        (Host.shrsi
          (broadcastInDim S16384x14 ![0, 1] bcast_S16384x1_S16384x14_0_1
            (broadcastInDim S16384x1 ![0] bcast_S16384_S16384x1_0 (iotaInDim S16384 32 0)))
          (broadcastInDim S16384x14 ![0, 1] bcast_S1x14_S16384x14_0_1
            (broadcastInDim S1x14 ![1] bcast_S14_S1x14_1
              (subi (broadcastInDim S14 ![] bcast_S_S14 (constantI S_ 32 13#32)) (iotaInDim S14 32 0)))))
        (broadcastInDim S16384x14 ![] bcast_S_S16384x14 (constantI S_ 32 1#32)))))

/-- At (n, q) the table holds σ(n, q). -/
theorem table_apply (n : Fin 16384) (q : Fin 14) : table (ix2 n q) = sgn n q := by
  unfold table
  simp only [subf, mulf, sitofp, andi, Host.shrsi, subi, bc_scalar, bc_scalar14, bc_col, bc_cols, bc_row, bc_rows]
  rfl

/-- The array the launch finds as its third operand is that table. -/
theorem V_table (m : (ℓ : Loc nD τ sig) → Buf (Elt Ideal) ℓ) (c : Dev nD) :
    (V m c main_v15 : S16384x14.Idx → EReal) = table := by
  dsimp only [V, hostOps0]
  after_results
  rfl

end Cert.PauliZ.Kernel

end
-- ==== Proof.BlockReads.lean ====
/-
  What each grid point's body is handed.

  The 64 grid points are t = 8·i + k, row tile `i` outermost and the stretch `k` of basis states innermost. At point
  `t` the two amplitude windows hold rows 512·i … 512·i + 511 and columns 2048·k … 2048·k + 2047 of the real and
  imaginary parts, and the sign window holds rows 2048·k … 2048·k + 2047 of the sign table, all 14 columns. Read at
  a coordinate inside the block these are the arguments' entries, and σ, at the shifted coordinates.
-/
import proofs.«102117_j35150012350919_2_alg».proof.Proof.Gen.KernelIdeal.Frame.Runs
import proofs.«102117_j35150012350919_2_alg».proof.Proof.SignTable

noncomputable section

namespace Cert.PauliZ.Kernel

open Cert.KernelIdeal Cert.KernelIdeal.Gen
open Idealize.ShloMosaic Idealize.ShloMosaic.TcCoe Idealize.SL.Sem Idealize.ShloMosaic.ValueIdx

/-- The printed index maps, decided once over the 64 points: at t = 8·i + k the amplitude windows are on block (i, k)
    and the sign window on block (k, 0). -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0 :=
  (by decide +kernel : ∀ t : Fin grid0.N, _)

variable (m : (ℓ : Loc nD τ sig) → Buf (Elt Ideal) ℓ)

/-- Entry (y, k) of the real parts' block at point `t` is the argument's entry (b, n) with b = 512·(t/8) + y and
    n = 2048·(t%8) + k. -/
theorem re_block (c : Dev nD) (t : Fin cfg0.N) (y : Fin 512) (k : Fin 2048) (b : Fin 4096) (n : Fin 16384)
    (hb : b.val = 512 * (t.val / 8) + y.val) (hn : n.val = 2048 * (t.val % 8) + k.val) :
    (iblk m c 0 t : Vec Ideal S512x2048 .f32) (ix2 y k) = m ((c : Thread nD τ).loc main_arg0) (ix2 b n) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * y.val = b.val; rw [e0, hb]; omega
  | ⟨1, _⟩ => show win0_0.index t (1 : Fin 2) * 2048 + 1 * k.val = n.val; rw [e1, hn]; omega

/-- Entry (y, k) of the imaginary parts' block at point `t`, likewise. -/
theorem im_block (c : Dev nD) (t : Fin cfg0.N) (y : Fin 512) (k : Fin 2048) (b : Fin 4096) (n : Fin 16384)
    (hb : b.val = 512 * (t.val / 8) + y.val) (hn : n.val = 2048 * (t.val % 8) + k.val) :
    (iblk m c 1 t : Vec Ideal S512x2048 .f32) (ix2 y k) = m ((c : Thread nD τ).loc main_arg1) (ix2 b n) := by
  obtain ⟨-, -, e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 512 + 1 * y.val = b.val; rw [e0, hb]; omega
  | ⟨1, _⟩ => show win0_1.index t (1 : Fin 2) * 2048 + 1 * k.val = n.val; rw [e1, hn]; omega

/-- Entry (k, q) of the sign block at point `t` is σ(n, q) with n = 2048·(t%8) + k. -/
theorem sign_block (c : Dev nD) (t : Fin cfg0.N) (k : Fin 2048) (q : Fin 14) (n : Fin 16384)
    (hn : n.val = 2048 * (t.val % 8) + k.val) :
    (iblk m c 2 t : Vec Ideal S2048x14 .f32) (ix2 k q) = sgn n q := by
  obtain ⟨-, -, -, -, e0, e1⟩ := idx_facts t
  unfold iblk
  rw [View.read_apply]
  show (V m c main_v15 : S16384x14.Idx → EReal) _ = _
  rw [V_table, ← table_apply]
  congr 1
  funext a
  apply Fin.ext
  match a with
  | ⟨0, _⟩ => show win0_2.index t (0 : Fin 2) * 2048 + 1 * k.val = n.val; rw [e0, hn]; omega
  | ⟨1, _⟩ => show win0_2.index t (1 : Fin 2) * 14 + 1 * q.val = q.val; rw [e1]; omega

end Cert.PauliZ.Kernel

end
-- ==== Proof.BodyStep.lean ====
/-
  One grid point's arithmetic, read at an entry.

  The body forms p = re² + im² on its [512, 2048] blocks, multiplies p by the [2048, 14] sign block on the matrix
  unit into a zero accumulator, and adds the product to what the output block held. At entry (y, q) of the
  [512, 14] output block that is

      acc(y, q) + Σ_{k < 2048} (re(y,k)² + im(y,k)²) · sign(k, q)

  on the extended reals: the product into zero is the plain sum over the contracted axis, whose positions are the
  2048 columns of p and rows of the sign block. The first point of a run starts from the zero block.
-/
import proofs.«102117_j35150012350919_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.PauliZ.Kernel

open Cert.KernelIdeal Cert.KernelIdeal.Gen
open Idealize.ShloMosaic Idealize.ShloMosaic.ValueIdx

/-- The partial expectation over one stretch: Σ_{k < 2048} (re(y,k)² + im(y,k)²) · sign(k, q) at entry j = (y, q). -/
def blockSum (x0 x1 : Vec Ideal S512x2048 .f32) (x2 : Vec Ideal S2048x14 .f32) (j : S512x14.Idx) : EReal :=
  ∑ k : Fin 2048, (x0 (ix2 (j 0) k) * x0 (ix2 (j 0) k) + x1 (ix2 (j 0) k) * x1 (ix2 (j 0) k)) * x2 (ix2 k (j 1))

/-- The zero block a run starts from. -/
theorem zero_apply (j : S512x14.Idx) : k0_pay1 (F := Ideal) j = 0 := by
  unfold k0_pay1
  show Ideal.ofBits .f32 0x00000000#32 = 0
  exact Ideal.ofBits_zero_f32

/-- The product's left index keeps the output's row, -/
theorem lhs_row (j : S512x14.Idx) (p : dot_S512x2048_S2048x14_S512x14_1_0_0_1_n_n.contr.Idx) :
    (dot_S512x2048_S2048x14_S512x14_1_0_0_1_n_n.lhsIdx j p 0).val = (j 0).val := by
  unfold DotDims.lhsIdx
  rw [dif_neg (show ¬(0 : Fin S512x2048.rank) ∈ dot_S512x2048_S2048x14_S512x14_1_0_0_1_n_n.lhsBatch by decide),
    dif_pos (show (0 : Fin S512x2048.rank) ∈ dot_S512x2048_S2048x14_S512x14_1_0_0_1_n_n.lhsNonContracting by decide)]
  rfl
/-- and runs over the contracted position in its columns; -/
theorem lhs_contr (j : S512x14.Idx) (p : dot_S512x2048_S2048x14_S512x14_1_0_0_1_n_n.contr.Idx) :
    (dot_S512x2048_S2048x14_S512x14_1_0_0_1_n_n.lhsIdx j p 1).val = (p ⟨0, by decide⟩).val :=
  dot_S512x2048_S2048x14_S512x14_1_0_0_1_n_n.lhsIdx_val_of_single rfl j p
/-- the right index runs over the contracted position in its rows, -/
theorem rhs_contr (j : S512x14.Idx) (p : dot_S512x2048_S2048x14_S512x14_1_0_0_1_n_n.contr.Idx) :
    (dot_S512x2048_S2048x14_S512x14_1_0_0_1_n_n.rhsIdx j p 0).val = (p ⟨0, by decide⟩).val :=
  dot_S512x2048_S2048x14_S512x14_1_0_0_1_n_n.rhsIdx_val_of_single rfl j p
/-- and keeps the output's column. -/
theorem rhs_col (j : S512x14.Idx) (p : dot_S512x2048_S2048x14_S512x14_1_0_0_1_n_n.contr.Idx) :
    (dot_S512x2048_S2048x14_S512x14_1_0_0_1_n_n.rhsIdx j p 1).val = (j 1).val := by
  unfold DotDims.rhsIdx
  rw [dif_neg (show ¬(1 : Fin S2048x14.rank) ∈ dot_S512x2048_S2048x14_S512x14_1_0_0_1_n_n.rhsBatch by decide),
    dif_pos (show (1 : Fin S2048x14.rank) ∈ dot_S512x2048_S2048x14_S512x14_1_0_0_1_n_n.rhsNonContracting by decide)]
  rfl

/-- One step at entry (y, q): what the block held plus the stretch's partial expectation. -/
theorem step_ix (x0 x1 : Vec Ideal S512x2048 .f32) (x2 : Vec Ideal S2048x14 .f32) (acc : Vec Ideal S512x14 .f32)
    (y : Fin 512) (q : Fin 14) :
    k0_pay2 x0 x1 x2 acc (ix2 y q) = acc (ix2 y q) + blockSum x0 x1 x2 (ix2 y q) := by
  unfold k0_pay2
  simp only [shapeCast_self]
  show acc (ix2 y q) + FloatOps.matmul dot_S512x2048_S2048x14_S512x14_1_0_0_1_n_n (some .fp32) (addf (mulf x0 x0) (mulf x1 x1)) x2
      (constant (F := Ideal) S512x14 .f32 0x00000000#32) (ix2 y q) = _
  rw [Ideal.matmul_constant_zero_apply,
    ← Equiv.sum_comp (contrEquiv1 dot_S512x2048_S2048x14_S512x14_1_0_0_1_n_n 2048 rfl rfl).symm]
  refine congrArg (acc (ix2 y q) + ·) (Finset.sum_congr rfl fun k _ => ?_)
  have hk := contrEquiv1_symm_val dot_S512x2048_S2048x14_S512x14_1_0_0_1_n_n 2048 rfl rfl k
  have el : dot_S512x2048_S2048x14_S512x14_1_0_0_1_n_n.lhsIdx (ix2 y q) ((contrEquiv1 dot_S512x2048_S2048x14_S512x14_1_0_0_1_n_n 2048 rfl rfl).symm k) = ix2 y k :=
    funext fun a => Fin.ext (by
      match a with
      | ⟨0, _⟩ => exact lhs_row _ _
      | ⟨1, _⟩ => exact (lhs_contr _ _).trans hk)
  have er : dot_S512x2048_S2048x14_S512x14_1_0_0_1_n_n.rhsIdx (ix2 y q) ((contrEquiv1 dot_S512x2048_S2048x14_S512x14_1_0_0_1_n_n 2048 rfl rfl).symm k) = ix2 k q :=
    funext fun a => Fin.ext (by
      match a with
      | ⟨0, _⟩ => exact (rhs_contr _ _).trans hk
      | ⟨1, _⟩ => exact rhs_col _ _)
  rw [el, er]
  rfl

/-- The same at any entry of the block. -/
theorem step_apply (x0 x1 : Vec Ideal S512x2048 .f32) (x2 : Vec Ideal S2048x14 .f32) (acc : Vec Ideal S512x14 .f32)
    (j : S512x14.Idx) :
    k0_pay2 x0 x1 x2 acc j = acc j + blockSum x0 x1 x2 j := by
  obtain ⟨y, q, rfl⟩ : ∃ (y : Fin 512) (q : Fin 14), j = ix2 y q := ⟨j 0, j 1, eq_ix2 j⟩
  exact step_ix x0 x1 x2 acc y q

end Cert.PauliZ.Kernel

end
-- ==== Proof.Accumulate.lean ====
/-
  The kernel's output is the expectation `expect`.

  Row tile i = b / 512 of the output is produced by the run of eight consecutive grid points 8·i … 8·i + 7. The first
  resets the output block to zero and adds its stretch's partial expectation, each later one adds its own, and the
  last writes the block back: entry (b, q) of the result is the fold of that run at (b % 512, q), that is

      0 + Σ_{s < 8} Σ_{k < 2048} (re(b, 2048·s + k)² + im(b, 2048·s + k)²) · σ(2048·s + k, q).

  Regrouped (`sum_blocks`: addition on the extended reals is commutative and associative) this is the single sum
  over the 16384 basis states that defines E(b, q).
-/
import proofs.«102117_j35150012350919_2_alg».proof.Proof.Gen.KernelIdeal.Value
import proofs.«102117_j35150012350919_2_alg».proof.Proof.BlockReads
import proofs.«102117_j35150012350919_2_alg».proof.Proof.BodyStep
import proofs.«102117_j35150012350919_2_alg».proof.Proof.Expectation

noncomputable section

namespace Cert.PauliZ.Kernel

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- What grid point `n` adds to its row tile's output block: its stretch's partial expectation over the blocks it is
    handed (zero past the grid, where it is never read). -/
def addend (c : Dev nD) (n : ℕ) (j : S512x14.Idx) : EReal :=
  if h : n < cfg0.N then blockSum (iblk m c 0 ⟨n, h⟩) (iblk m c 1 ⟨n, h⟩) (iblk m c 2 ⟨n, h⟩) j else 0

/-- The term of E(b, q) at basis state `n` (zero past the 16384 states, where it is never read). -/
def term (re im : FVec Ideal S4096x16384 .f32) (b : Fin 4096) (q : Fin 14) (n : ℕ) : EReal :=
  if h : n < 16384 then (re (ix2 b ⟨n, h⟩) * re (ix2 b ⟨n, h⟩) + im (ix2 b ⟨n, h⟩) * im (ix2 b ⟨n, h⟩)) * sgn ⟨n, h⟩ q
  else 0

/-- Point 8·(b/512) + s adds, at (b % 512, q), the terms of E(b, q) over the stretch `s`. -/
theorem addend_eq (c : Dev nD) (b : Fin 4096) (q : Fin 14) (s : ℕ) (hs : s < 8) :
    addend m c (8 * (b.val / 512) + s) (Value.loc3Of (ix2 b q))
      = ∑ k : Fin 2048, term (m ((c : Thread nD τ).loc main_arg0)) (m ((c : Thread nD τ).loc main_arg1)) b q (2048 * s + k.val) := by
  have hb := b.isLt
  have hlt : 8 * (b.val / 512) + s < cfg0.N := by rw [show cfg0.N = 64 from N_0]; omega
  unfold addend
  rw [dif_pos hlt]
  unfold blockSum
  refine Finset.sum_congr rfl fun k _ => ?_
  have hk := k.isLt
  have hn : 2048 * s + k.val < 16384 := by omega
  unfold term
  rw [dif_pos hn]
  have hy : ((Value.loc3Of (ix2 b q)) 0).val = b.val % 512 := rfl
  have hq : (Value.loc3Of (ix2 b q)) 1 = q := Fin.ext (by show q.val % 14 = q.val; have := q.isLt; omega)
  have hre := re_block m c ⟨_, hlt⟩ ((Value.loc3Of (ix2 b q)) 0) k b ⟨_, hn⟩
    (by show b.val = 512 * ((8 * (b.val / 512) + s) / 8) + _; rw [hy]; omega)
    (by show 2048 * s + k.val = 2048 * ((8 * (b.val / 512) + s) % 8) + k.val; omega)
  have him := im_block m c ⟨_, hlt⟩ ((Value.loc3Of (ix2 b q)) 0) k b ⟨_, hn⟩
    (by show b.val = 512 * ((8 * (b.val / 512) + s) / 8) + _; rw [hy]; omega)
    (by show 2048 * s + k.val = 2048 * ((8 * (b.val / 512) + s) % 8) + k.val; omega)
  have hsg := sign_block m c ⟨_, hlt⟩ k ((Value.loc3Of (ix2 b q)) 1) ⟨_, hn⟩
    (by show 2048 * s + k.val = 2048 * ((8 * (b.val / 512) + s) % 8) + k.val; omega)
  rw [hre, him, hsg, hq]

/-- THE RESULT: the fold the eight points of a row tile's run leave, regrouped, is E of the two arguments. -/
theorem result_eq (c : Dev nD) :
    Value.G3 m c = expect (m ((c : Thread nD τ).loc main_arg0)) (m ((c : Thread nD τ).loc main_arg1)) := by
  funext i
  obtain ⟨b, q, rfl⟩ : ∃ (b : Fin 4096) (q : Fin 14), i = ix2 b q := ⟨i 0, i 1, eq_ix2 i⟩
  have hb := b.isLt
  have hq := q.isLt
  have hN : cfg0.N = 64 := N_0
  have hr : Value.run3Of (ix2 b q) = b.val / 512 := by
    show 1 * (b.val / 512 - 0) + 1 * (q.val / 14 - 0) = _
    have : q.val / 14 = 0 := by omega
    omega
  unfold Value.G3
  rw [dif_pos (by rw [hr, hN]; omega)]
  have base : ∀ (b0 b1 : ℕ) (h0 : b0 + 7 < cfg0.N) (h1 : b1 + 7 < cfg0.N), b0 = b1 →
      Pipeline.accAt (Value.reset3 m c) (Value.step3 m c) b0 7 h0 = Pipeline.accAt (Value.reset3 m c) (Value.step3 m c) b1 7 h1 := by
    intro b0 b1 h0 h1 hh; subst hh; rfl
  rw [base _ (8 * (b.val / 512)) _ (by rw [hN]; omega) (by rw [hr])]
  rw [Pipeline.accAt_add_apply (Value.reset3 m c) (Value.step3 m c) (fun _ => (0 : EReal)) (addend m c) (8 * (b.val / 512)) 7
    (fun h j => by
      unfold addend
      rw [dif_pos h]
      exact (step_apply (iblk m c 0 ⟨_, h⟩) (iblk m c 1 ⟨_, h⟩) (iblk m c 2 ⟨_, h⟩) (k0_pay1 (F := Ideal)) j).trans
        (congrArg (· + _) (zero_apply j)))
    (fun n h acc j _ _ => by
      unfold addend
      rw [dif_pos h]
      exact step_apply (iblk m c 0 ⟨n, h⟩) (iblk m c 1 ⟨n, h⟩) (iblk m c 2 ⟨n, h⟩) acc j)
    7 (le_refl _)]
  show (0 : EReal) + ∑ s ∈ Finset.range 8, addend m c (8 * (b.val / 512) + s) (Value.loc3Of (ix2 b q)) = _
  rw [zero_add, Finset.sum_congr rfl (fun s hs => addend_eq m c b q s (Finset.mem_range.mp hs)), sum_blocks (term (m ((c : Thread nD τ).loc main_arg0)) (m ((c : Thread nD τ).loc main_arg1)) b q)]
  unfold expect
  refine Finset.sum_congr rfl fun n _ => ?_
  unfold term
  rw [dif_pos n.isLt]

end Cert.PauliZ.Kernel

end
-- ==== Proof.lean ====
/-
  Pauli-Z expectations of a batch of quantum states: the kernel against its reference, on the extended reals.

  For 4096 states over 14 qubits, given by the real and imaginary parts of their 16384 amplitudes, both programs
  compute

      E(b, q) = Σ_n (re(b,n)² + im(b,n)²) · σ(n, q),      σ(n, q) = 1 − 2 · bit_{13 − q}(n)

  (Proof/Expectation.lean). The reference builds the [14, 16384] table of σ and contracts the probabilities with it
  in one product (Proof/RefExpectation.lean). The kernel builds the same table transposed (Proof/SignTable.lean),
  and for each tile of 512 states runs over the eight stretches of 2048 basis states: the first grid point of the run
  zeroes the [512, 14] output block, every point adds the product of its [512, 2048] block of probabilities with its
  [2048, 14] block of signs (Proof/BlockReads.lean, Proof/BodyStep.lean), and the last writes the block back. The
  eight partial sums regroup into the one sum (Proof/Accumulate.lean) because addition on the extended reals is
  commutative and associative; nothing is cancelled or distributed, so the amplitudes' finiteness is never used.

  The two idealized programs therefore end with equal results from equal arguments; the word-level kernel's
  idealization rewrote no operation, so there is nothing to preserve beyond the program's own text; and each program
  runs to completion leaving its arguments as they were.
-/
import proofs.«102117_j35150012350919_2_alg».proof.Defs
import proofs.«102117_j35150012350919_2_alg».proof.Proof.Gen.Kernel.Frame
import proofs.«102117_j35150012350919_2_alg».proof.Proof.Gen.KernelIdeal.Value
import proofs.«102117_j35150012350919_2_alg».proof.Proof.Gen.Pre_finite_inputs
import proofs.«102117_j35150012350919_2_alg».proof.Proof.Gen.ReferenceIdeal.Run
import proofs.«102117_j35150012350919_2_alg».proof.Proof.Gen.ReferenceIdeal.Read
import proofs.«102117_j35150012350919_2_alg».proof.Proof.RefExpectation
import proofs.«102117_j35150012350919_2_alg».proof.Proof.Accumulate
import Idealize.ShloMosaic.Adequacy
import Idealize.ShloMosaic.Init

noncomputable section

namespace Cert.Proof

open Idealize.ShloMosaic Idealize.SL.Sem

/-- The idealized kernel runs to completion and leaves both amplitude arrays as they were. -/
theorem frame_KernelIdeal : frame_KernelIdeal := fun m ρ _ =>
  (θ_run Cert.KernelIdeal.defs _ _).mono (fun _ h c => (h c).2) (Cert.KernelIdeal.Value.run (F := Ideal) m ρ)

/-- The idealized reference runs to completion and leaves both amplitude arrays as they were. -/
theorem frame_ReferenceIdeal : frame_ReferenceIdeal := fun m ρ _ =>
  (θ_run Cert.ReferenceIdeal.defs _ _).mono (fun _ h c => (h c).2) (Cert.ReferenceIdeal.Value.run (F := Ideal) m ρ)

/-- From equal amplitudes both idealized programs end at E of them: the kernel's eight accumulated block products
    and the reference's one contraction are the same sum over the basis states. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact ((Cert.ReferenceIdeal.Read.val_main_v20_eq _ _).trans (Cert.PauliZ.Reference.result_eq _ _)).trans
    (Cert.PauliZ.Kernel.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
